-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S256x32 .f32) (main_arg5 : FVec F S32 .f32) (main_arg6 : FVec F S256x32 .f32) (main_arg7 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S262144x32 .f32) (main_arg2 : FVec F S128x256 .f32) (main_arg3 : FVec F S256 .f32) (main_arg4 : FVec F S256x32 .f32) (main_arg5 : FVec F S32 .f32) (main_arg6 : FVec F S256x32 .f32) (main_arg7 : FVec F S32 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S1x256 : Shape := ⟨2, ![1, 256]⟩
abbrev S256x64 : Shape := ⟨2, ![256, 64]⟩
abbrev S64 : Shape := ⟨1, ![64]⟩
abbrev S1x64 : Shape := ⟨2, ![1, 64]⟩
abbrev S262144 : Shape := ⟨1, ![262144]⟩
abbrev S8192x128 : Shape := ⟨2, ![8192, 128]⟩
abbrev S8192x32 : Shape := ⟨2, ![8192, 32]⟩
abbrev S8192 : Shape := ⟨1, ![8192]⟩
abbrev S8192x256 : Shape := ⟨2, ![8192, 256]⟩
abbrev S8192x64 : Shape := ⟨2, ![8192, 64]⟩

abbrev nBuf : Space → Nat
  | .hbm => 18
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S128x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S256x32, .f32⟩
  | .hbm, ⟨7, _⟩ => ⟨S32, .f32⟩
  | .hbm, ⟨8, _⟩ => ⟨S128x256, .bf16⟩
  | .hbm, ⟨9, _⟩ => ⟨S1x256, .f32⟩
  | .hbm, ⟨10, _⟩ => ⟨S256x64, .f32⟩
  | .hbm, ⟨11, _⟩ => ⟨S256x64, .bf16⟩
  | .hbm, ⟨12, _⟩ => ⟨S64, .f32⟩
  | .hbm, ⟨13, _⟩ => ⟨S1x64, .f32⟩
  | .hbm, ⟨14, _⟩ => ⟨S262144x32, .f32⟩
  | .hbm, ⟨15, _⟩ => ⟨S262144x32, .f32⟩
  | .hbm, ⟨16, _⟩ => ⟨S262144, .f32⟩
  | .hbm, ⟨17, _⟩ => ⟨S262144, .f32⟩
  | .local _ .vmem, ⟨0, _⟩ => ⟨S8192x128, .f32⟩
  | .local _ .vmem, ⟨1, _⟩ => ⟨S8192x128, .f32⟩
  | .local _ .vmem, ⟨2, _⟩ => ⟨S8192x32, .f32⟩
  | .local _ .vmem, ⟨3, _⟩ => ⟨S8192x32, .f32⟩
  | .local _ .vmem, ⟨4, _⟩ => ⟨S128x256, .bf16⟩
  | .local _ .vmem, ⟨5, _⟩ => ⟨S1x256, .f32⟩
  | .local _ .vmem, ⟨6, _⟩ => ⟨S256x64, .bf16⟩
  | .local _ .vmem, ⟨7, _⟩ => ⟨S1x64, .f32⟩
  | .local _ .vmem, ⟨8, _⟩ => ⟨S8192x32, .f32⟩
  | .local _ .vmem, ⟨9, _⟩ => ⟨S8192x32, .f32⟩
  | .local _ .vmem, ⟨10, _⟩ => ⟨S8192x32, .f32⟩
  | .local _ .vmem, ⟨11, _⟩ => ⟨S8192x32, .f32⟩
  | .local _ .vmem, ⟨12, _⟩ => ⟨S8192, .f32⟩
  | .local _ .vmem, ⟨13, _⟩ => ⟨S8192, .f32⟩
  | .local _ .vmem, ⟨14, _⟩ => ⟨S8192, .f32⟩
  | .local _ .vmem, ⟨15, _⟩ => ⟨S8192, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S256_S1x256 : S256.ShapeCasts S1x256
  concatenates_S256x32_S256x32_S256x64_d1 : Shape.Concatenates [S256x32, S256x32] S256x64 1
  concatenates_S32_S32_S64_d0 : Shape.Concatenates [S32, S32] S64 0
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  inb_S8192x32_S8192x32_0_0 : ∀ a, (![0, 0] : Fin 2 → Nat) a + S8192x32.size a ≤ S8192x32.size a
  h_S8192x32 : 0 < S8192x32.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S8192x64_o0_0_S8192x32 : S8192x64.Slices ![0, 0] S8192x32
  slices_S8192x64_o0_32_S8192x32 : S8192x64.Slices ![0, 32] S8192x32
  reduces_S8192x32_S8192 : S8192x32.Reduces [1] S8192
  inb_S8192_S8192_0 : ∀ a, (![0] : Fin 1 → Nat) a + S8192.size a ≤ S8192.size a
  h_S8192 : 0 < S8192.numel
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S262144x32.size a
  hwx0_1 : ∀ i : grid0.Coords, EltTy.bits .f32 = 32 ∨ (Rect.block (s := S262144x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x32.size a ≤ S262144x32.size a
  hwx0_6 : ∀ i : grid0.Coords, EltTy.bits .f32 = 32 ∨ (Rect.block (s := S262144x32) S8192x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x32.size a ≤ S262144x32.size a
  hwx0_7 : ∀ i : grid0.Coords, EltTy.bits .f32 = 32 ∨ (Rect.block (s := S262144x32) S8192x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192.size a ≤ S262144.size a
  hwx0_8 : ∀ i : grid0.Coords, EltTy.bits .f32 = 32 ∨ (Rect.block (s := S262144) S8192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192.size a ≤ S262144.size a
  hwx0_9 : ∀ i : grid0.Coords, EltTy.bits .f32 = 32 ∨ (Rect.block (s := S262144) S8192.size (cc0_transform_9 i) (hinb0_9 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8192x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8192x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S8192.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_3) S8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S262144x256 : Shape := ⟨2, ![262144, 256]⟩
abbrev S1x256 : Shape := ⟨2, ![1, 256]⟩
abbrev S_ : Shape := ⟨0, ![]⟩
abbrev S1x32 : Shape := ⟨2, ![1, 32]⟩
abbrev S262144 : Shape := ⟨1, ![262144]⟩

abbrev nBuf : Space → Nat
  | .hbm => 70
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S128x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S256x32, .f32⟩
  | .hbm, ⟨7, _⟩ => ⟨S32, .f32⟩
  | .hbm, ⟨8, _⟩ => ⟨S262144x256, .f32⟩
  | .hbm, ⟨9, _⟩ => ⟨S1x256, .f32⟩
  | .hbm, ⟨10, _⟩ => ⟨S262144x256, .f32⟩
  | .hbm, ⟨11, _⟩ => ⟨S262144x256, .f32⟩
  | .hbm, ⟨12, _⟩ => ⟨S_, .f32⟩
  | .hbm, ⟨13, _⟩ => ⟨S262144x256, .f32⟩
  | .hbm, ⟨14, _⟩ => ⟨S262144x256, .f32⟩
  | .hbm, ⟨15, _⟩ => ⟨S262144x32, .f32⟩
  | .hbm, ⟨16, _⟩ => ⟨S1x32, .f32⟩
  | .hbm, ⟨17, _⟩ => ⟨S262144x32, .f32⟩
  | .hbm, ⟨18, _⟩ => ⟨S262144x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x32, .f32⟩
  | .hbm, ⟨23, _⟩ => ⟨S262144x32, .f32⟩
  | .hbm, ⟨24, _⟩ => ⟨S_, .f32⟩
  | .hbm, ⟨25, _⟩ => ⟨S262144x32, .f32⟩
  | .hbm, ⟨26, _⟩ => ⟨S262144x32, .f32⟩
  | .hbm, ⟨27, _⟩ => ⟨S262144x32, .f32⟩
  | .hbm, ⟨28, _⟩ => ⟨S1x32, .f32⟩
  | .hbm, ⟨29, _⟩ => ⟨S262144x32, .f32⟩
  | .hbm, ⟨30, _⟩ => ⟨S262144x32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S262144x32, .f32⟩
  | .hbm, ⟨35, _⟩ => ⟨S262144x32, .f32⟩
  | .hbm, ⟨36, _⟩ => ⟨S_, .f32⟩
  | .hbm, ⟨37, _⟩ => ⟨S262144x32, .f32⟩
  | .hbm, ⟨38, _⟩ => ⟨S262144x32, .f32⟩
  | .hbm, ⟨39, _⟩ => ⟨S262144x32, .f32⟩
  | .hbm, ⟨40, _⟩ => ⟨S262144x32, .f32⟩
  | .hbm, ⟨41, _⟩ => ⟨S262144x32, .f32⟩
  | .hbm, ⟨42, _⟩ => ⟨S262144x32, .f32⟩
  | .hbm, ⟨43, _⟩ => ⟨S262144x32, .f32⟩
  | .hbm, ⟨44, _⟩ => ⟨S_, .f32⟩
  | .hbm, ⟨45, _⟩ => ⟨S262144x32, .f32⟩
  | .hbm, ⟨46, _⟩ => ⟨S262144x32, .f32⟩
  | .hbm, ⟨47, _⟩ => ⟨S262144x32, .f32⟩
  | .hbm, ⟨48, _⟩ => ⟨S262144x32, .f32⟩
  | .hbm, ⟨49, _⟩ => ⟨S262144x32, .f32⟩
  | .hbm, ⟨50, _⟩ => ⟨S262144x32, .f32⟩
  | .hbm, ⟨51, _⟩ => ⟨S_, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S262144x32, .f32⟩
  | .hbm, ⟨60, _⟩ => ⟨S_, .f32⟩
  | .hbm, ⟨61, _⟩ => ⟨S262144x32, .f32⟩
  | .hbm, ⟨62, _⟩ => ⟨S262144x32, .f32⟩
  | .hbm, ⟨63, _⟩ => ⟨S_, .f32⟩
  | .hbm, ⟨64, _⟩ => ⟨S262144x32, .f32⟩
  | .hbm, ⟨65, _⟩ => ⟨S262144x32, .f32⟩
  | .hbm, ⟨66, _⟩ => ⟨S262144x32, .f32⟩
  | .hbm, ⟨67, _⟩ => ⟨S_, .f32⟩
  | .hbm, ⟨68, _⟩ => ⟨S262144, .f32⟩
  | .hbm, ⟨69, _⟩ => ⟨S262144, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  reducesTo_S262144x32_S262144_d1 : S262144x32.ReducesTo [1] S262144
  h_S_ : 0 < S_.numel
  bcast_S_S262144 : S_.BroadcastsInDim S262144 (![] : Fin 0 → Fin S262144.rank)
  dot_S262144x128_S128x256_S262144x256_1_0_0_1_n_n_wf : DotDims.WF S262144x128 S128x256 S262144x256 [1] [0] [0] [1] [] []
  dot_S262144x256_S256x32_S262144x32_1_0_0_1_n_n_wf : DotDims.WF S262144x256 S256x32 S262144x32 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf

class Facts : Prop extends Facts₀ where

variable [Facts]
-- ==== Proof.Actor.lean ====
/-
  A squashed-Gaussian policy head, one batch row at a time, on the extended reals.

  For a row `x` of observations and a row `nz` of noise:
    hidden   h_j   = max (Σ_k x_k · Wbb_kj + bbb_j) 0
    mean     μ_q   = clip₋₇⁷  (Σ_k h_k · Wμ_kq + bμ_q)
    log-var  ℓ_q   = clip₋₂⁵  (Σ_k h_k · Wσ_kq + bσ_q)
    sample   s_q   = μ_q + √(e^{ℓ_q}) · nz_q
    action   a_q   = 1 · tanh s_q
    Gaussian log-density   g = (−½) · Σ_q ((s_q − μ_q)² / e^{ℓ_q} + ℓ_q) − c
    squashed log-density   g − Σ_q log (1 − a_q² + ε)
  Every row depends on its own observations and noise only, so an array of rows is this function of each row; the
  four results over a batch are `action`, `sample`, `logp`, `gaussLogp` below. The float constants stay as the bit
  patterns both programs spell them with: they are never evaluated.
-/
import Idealize.ShloMosaic.PureOps.Ideal
import Idealize.ShloMosaic.Lib.ValueIdx

noncomputable section

namespace Cert.Actor

open Idealize.ShloMosaic Idealize.ShloMosaic.ValueIdx

/-! ## Scalars -/

/-- A dot product plus a bias. -/
def dotb {K : ℕ} (h w : Fin K → EReal) (b : EReal) : EReal := (∑ k : Fin K, h k * w k) + b

/-- Clamp to `[lo, hi]`: the lower bound first, then the upper. -/
def clip (lo hi v : EReal) : EReal := min hi (max lo v)

/-- The reparameterised sample: mean plus the square root of the variance times the noise. -/
def draw (mu ls nz : EReal) : EReal := mu + Ideal.sqrt (Ideal.exp ls) * nz

/-- The squashed action, scaled by the maximal action `1`. -/
def squash (s : EReal) : EReal := Ideal.ofBits .f32 0x3F800000#32 * Ideal.tanh s

/-- One coordinate's term of the diagonal Gaussian's log-density. -/
def gaussTerm (mu ls s : EReal) : EReal := Ideal.div ((s - mu) * (s - mu)) (Ideal.exp ls) + ls

/-- One coordinate's term of the squashing correction. -/
def squashTerm (a : EReal) : EReal :=
  Ideal.log (Ideal.ofBits .f32 0x3F800000#32 - a * a + Ideal.ofBits .f32 0x358637BD#32)

/-! ## One row -/

section row

variable (x : Fin 128 → EReal) (nz : Fin 32 → EReal) (wbb : Fin 128 → Fin 256 → EReal) (bbb : Fin 256 → EReal)
  (wmu wsig : Fin 256 → Fin 32 → EReal) (bmu bsig : Fin 32 → EReal)

/-- The hidden layer: an affine map then the positive part. -/
def hidden : Fin 256 → EReal :=
  fun j => max (dotb x (fun k => wbb k j) (bbb j)) (Ideal.ofBits .f32 0x00000000#32)

/-- The clamped mean. -/
def mean : Fin 32 → EReal := fun q =>
  clip (Ideal.ofBits .f32 0xC0E00000#32) (Ideal.ofBits .f32 0x40E00000#32)
    (dotb (hidden x wbb bbb) (fun k => wmu k q) (bmu q))

/-- The clamped log-variance. -/
def logvar : Fin 32 → EReal := fun q =>
  clip (Ideal.ofBits .f32 0xC0000000#32) (Ideal.ofBits .f32 0x40A00000#32)
    (dotb (hidden x wbb bbb) (fun k => wsig k q) (bsig q))

/-- The sample before squashing. -/
def rowSample : Fin 32 → EReal := fun q =>
  draw (mean x wbb bbb wmu bmu q) (logvar x wbb bbb wsig bsig q) (nz q)

/-- The action. -/
def rowAction : Fin 32 → EReal := fun q => squash (rowSample x nz wbb bbb wmu wsig bmu bsig q)

/-- The Gaussian log-density of the sample. -/
def rowGaussLogp : EReal :=
  Ideal.ofBits .f32 0xBF000000#32
      * (∑ q : Fin 32, gaussTerm (mean x wbb bbb wmu bmu q) (logvar x wbb bbb wsig bsig q)
          (rowSample x nz wbb bbb wmu wsig bmu bsig q))
    - Ideal.ofBits .f32 0x41EB3F8E#32

/-- The log-density of the action. -/
def rowLogp : EReal :=
  rowGaussLogp x nz wbb bbb wmu wsig bmu bsig
    - ∑ q : Fin 32, squashTerm (rowAction x nz wbb bbb wmu wsig bmu bsig q)

end row

/-! ## A batch of rows -/

/-- A matrix of extended reals, indexed as the programs index it. -/
abbrev Mat (a b : ℕ) := (⟨2, ![a, b]⟩ : Shape).Idx → EReal
/-- A vector of extended reals. -/
abbrev Vect (a : ℕ) := (⟨1, ![a]⟩ : Shape).Idx → EReal

/-- Row `p` of a matrix. -/
def rowOf {a b : ℕ} (A : Mat a b) (p : Fin a) : Fin b → EReal := fun k => A (ix2 p k)
/-- A matrix by its two coordinates. -/
def matOf {a b : ℕ} (A : Mat a b) : Fin a → Fin b → EReal := fun k j => A (ix2 k j)
/-- A vector by its coordinate. -/
def vecOf {a : ℕ} (v : Vect a) : Fin a → EReal := fun j => v (ix1 j)

section batch

variable (obs : Mat 262144 128) (noise : Mat 262144 32) (Wbb : Mat 128 256) (bbb : Vect 256)
  (Wmu : Mat 256 32) (bmu : Vect 32) (Wsig : Mat 256 32) (bsig : Vect 32)

/-- The action of row `p`, coordinate `q`. -/
def actionAt (p : Fin 262144) (q : Fin 32) : EReal :=
  rowAction (rowOf obs p) (rowOf noise p) (matOf Wbb) (vecOf bbb) (matOf Wmu) (matOf Wsig) (vecOf bmu) (vecOf bsig) q

/-- The unsquashed sample of row `p`, coordinate `q`. -/
def sampleAt (p : Fin 262144) (q : Fin 32) : EReal :=
  rowSample (rowOf obs p) (rowOf noise p) (matOf Wbb) (vecOf bbb) (matOf Wmu) (matOf Wsig) (vecOf bmu) (vecOf bsig) q

/-- The log-density of row `p`'s action. -/
def logpAt (p : Fin 262144) : EReal :=
  rowLogp (rowOf obs p) (rowOf noise p) (matOf Wbb) (vecOf bbb) (matOf Wmu) (matOf Wsig) (vecOf bmu) (vecOf bsig)

/-- The Gaussian log-density of row `p`'s sample. -/
def gaussLogpAt (p : Fin 262144) : EReal :=
  rowGaussLogp (rowOf obs p) (rowOf noise p) (matOf Wbb) (vecOf bbb) (matOf Wmu) (matOf Wsig) (vecOf bmu) (vecOf bsig)

/-- The four result arrays. -/
def action : Mat 262144 32 := fun i => actionAt obs noise Wbb bbb Wmu bmu Wsig bsig (i 0) (i 1)
def sample : Mat 262144 32 := fun i => sampleAt obs noise Wbb bbb Wmu bmu Wsig bsig (i 0) (i 1)
def logp : Vect 262144 := fun i => logpAt obs noise Wbb bbb Wmu bmu Wsig bsig (i 0)
def gaussLogp : Vect 262144 := fun i => gaussLogpAt obs noise Wbb bbb Wmu bmu Wsig bsig (i 0)

end batch

end Cert.Actor

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.KernelRows.lean ====
/-
  The kernel body computes the policy head row by row.

  One grid point holds a block of 8192 rows: observations `x0`, noise `x1`, the backbone weights `x2` and bias row `x3`,
  and the two heads FUSED — the mean's and the log-variance's weight matrices side by side as one [256, 64] matrix
  `x4`, their biases one [1, 64] row `x5`. At row `r` of the block:
  * a matrix product into the zero accumulator is the dot product of row `r` with a column, a bias row broadcast down
    the rows is read at its column, and a conversion to bf16 is the identity on the extended reals — so the fused head at
    column `j` is the dot product of row `r` of the hidden layer with column `j` of `x4`, plus `x5`'s coordinate `j`;
  * the two slices of the fused head are its columns `q` (the mean) and `32 + q` (the log-variance), so the mean and
    the log-variance are the scalar formulas of `Cert.Actor` with the left and the right halves of `x4` and `x5` as
    their weights and biases;
  * a sum over the lane axis at row `r` is the sum over the 32 columns of that row.
  Hence the four stored vectors, at row `r`, are `Cert.Actor`'s row functions of row `r` of `x0` and `x1`.
-/
import proofs.«146228_j83099027243561_2_alg».proof.Proof.Gen.KernelIdeal.Skeleton
import proofs.«146228_j83099027243561_2_alg».proof.Proof.Actor
import proofs.«146228_j83099027243561_2_alg».proof.Proof.LibMatmul2
import Idealize.ShloMosaic.Lib.ValueLayout
import Idealize.ShloMosaic.PureOps.Ideal.Laws

noncomputable section
namespace Cert.KernelIdeal.KerValue
open Cert.KernelIdeal Cert.KernelIdeal.Gen Idealize.ShloMosaic Idealize.ShloMosaic.ValueIdx Cert.Actor

/-! ## Building blocks -/

/-- The left half of the fused head's 64 columns: column `q`. -/
def lo (q : Fin 32) : Fin 64 := ⟨q.val, by omega⟩
/-- The right half: column `32 + q`. -/
def hi (q : Fin 32) : Fin 64 := ⟨32 + q.val, by omega⟩

/-- An affine layer then the positive part, at row `r` and column `k`: the matrix product into the zero accumulator is a
    row against a column, and the bias row is broadcast down the rows. -/
theorem relu_affine (l : FVec Ideal S8192x128 .bf16) (w : FVec Ideal S128x256 .bf16) (b : FVec Ideal S1x256 .f32)
    (hb : S1x256.Broadcasts S8192x256) (z : Ideal .f32) (r : Fin 8192) (k : Fin 256) :
    (maximumf (addf (matmul dot_S8192x128_S128x256_S8192x256_1_0_0_1_n_n none l w (constant S8192x256 .f32 0x00000000#32))
        (broadcastTo S8192x256 b hb)) (broadcast S8192x256 z)) (ix2 r k)
      = max ((∑ k' : Fin 128, l (ix2 r k') * w (ix2 k' k)) + b (ix2 (0 : Fin 1) k)) z :=
  congrArg₂ (fun a c => max (a + c) z)
    (Cert.Lib.matmul2_zero_apply Facts₀.dot_S8192x128_S128x256_S8192x256_1_0_0_1_n_n_wf l w r k)
    (broadcastTo_1b_ab_apply b hb r k)

/-- A sum over the 32 columns of a block's row. -/
theorem rowSum_apply (v : FVec Ideal S8192x32 .f32) (h : S8192x32.Reduces [1] S8192) (hφ : FKind.Formats .f32)
    (hacc : (0x00000000#32 : BitVec 32) = FKind.add.neutral .f32 hφ) (r : Fin 8192) :
    multiReduction .add [1] S8192 v 0x00000000#32 h hφ hacc (ix1 r) = ∑ q : Fin 32, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-! ## The body's values at a block index -/

section payloads

variable (x0 : FVec Ideal S8192x128 .f32) (x1 : FVec Ideal S8192x32 .f32) (x2 : FVec Ideal S128x256 .bf16)
  (x3 : FVec Ideal S1x256 .f32) (x4 : FVec Ideal S256x64 .bf16) (x5 : FVec Ideal S1x64 .f32) (r : Fin 8192)

/-- The fused heads before clamping: row `r` of the hidden layer against column `j` of the fused weights, plus the
    fused bias's coordinate `j` (the conversions to bf16 are the identity on the extended reals). -/
theorem pay3_apply (j : Fin 64) :
    k0_pay3 (F := Ideal) x0 x2 x3 x4 x5 (ix2 r j)
      = dotb (hidden (rowOf x0 r) (matOf x2) (fun k => x3 (ix2 (0 : Fin 1) k))) (fun k => x4 (ix2 k j))
          (x5 (ix2 (0 : Fin 1) j)) := by
  unfold k0_pay3
  simp only [shapeCast_self]
  show (matmul dot_S8192x256_S256x64_S8192x64_1_0_0_1_n_n none _ x4 (constant S8192x64 .f32 0x00000000#32)) (ix2 r j)
      + (broadcastTo S8192x64 x5 broadcasts_S1x64_S8192x64) (ix2 r j) = _
  refine (congrArg₂ (· + ·)
    (Cert.Lib.matmul2_zero_apply Facts₀.dot_S8192x256_S256x64_S8192x64_1_0_0_1_n_n_wf _ x4 r j)
    (broadcastTo_1b_ab_apply x5 broadcasts_S1x64_S8192x64 r j)).trans ?_
  unfold dotb
  refine congrArg₂ (· + ·) (Finset.sum_congr rfl fun k _ => congrArg₂ (· * ·) ?_ rfl) rfl
  exact relu_affine (truncf .bf16 x0 bitsLt_bf16_f32) x2 x3 broadcasts_S1x256_S8192x256 _ r k

/-- The clamped mean: the left half of the fused heads. -/
theorem pay4_apply (q : Fin 32) :
    k0_pay4 (F := Ideal) x0 x2 x3 x4 x5 (ix2 r q)
      = mean (rowOf x0 r) (matOf x2) (fun k => x3 (ix2 (0 : Fin 1) k)) (fun k q => x4 (ix2 k (lo q)))
          (fun q => x5 (ix2 (0 : Fin 1) (lo q))) q := by
  unfold k0_pay4
  rw [minimumf_apply, maximumf_apply, broadcast_apply, broadcast_apply,
    slice2_axis1_apply 0 (k0_pay3 (F := Ideal) x0 x2 x3 x4 x5) slices_S8192x64_o0_0_S8192x32 r q (lo q) (Nat.zero_add _).symm,
    pay3_apply]
  rfl

/-- The clamped log-variance: the right half. -/
theorem pay5_apply (q : Fin 32) :
    k0_pay5 (F := Ideal) x0 x2 x3 x4 x5 (ix2 r q)
      = logvar (rowOf x0 r) (matOf x2) (fun k => x3 (ix2 (0 : Fin 1) k)) (fun k q => x4 (ix2 k (hi q)))
          (fun q => x5 (ix2 (0 : Fin 1) (hi q))) q := by
  unfold k0_pay5
  rw [minimumf_apply, maximumf_apply, broadcast_apply, broadcast_apply,
    slice2_axis1_apply 32 (k0_pay3 (F := Ideal) x0 x2 x3 x4 x5) slices_S8192x64_o0_32_S8192x32 r q (hi q) rfl,
    pay3_apply]
  rfl

/-- The variance. -/
theorem pay6_apply (q : Fin 32) :
    k0_pay6 (F := Ideal) x0 x2 x3 x4 x5 (ix2 r q) = Ideal.exp (k0_pay5 (F := Ideal) x0 x2 x3 x4 x5 (ix2 r q)) := rfl

/-- The sample before squashing. -/
theorem pay7_apply (q : Fin 32) :
    k0_pay7 (F := Ideal) x0 x1 x2 x3 x4 x5 (ix2 r q)
      = rowSample (rowOf x0 r) (rowOf x1 r) (matOf x2) (fun k => x3 (ix2 (0 : Fin 1) k)) (fun k q => x4 (ix2 k (lo q)))
          (fun k q => x4 (ix2 k (hi q))) (fun q => x5 (ix2 (0 : Fin 1) (lo q))) (fun q => x5 (ix2 (0 : Fin 1) (hi q))) q := by
  unfold k0_pay7
  show (k0_pay4 (F := Ideal) x0 x2 x3 x4 x5 (ix2 r q) : EReal)
      + Ideal.sqrt (k0_pay6 (F := Ideal) x0 x2 x3 x4 x5 (ix2 r q)) * x1 (ix2 r q) = _
  rw [pay4_apply, pay6_apply, pay5_apply]
  rfl

/-- The action. -/
theorem pay8_apply (q : Fin 32) :
    k0_pay8 (F := Ideal) x0 x1 x2 x3 x4 x5 (ix2 r q)
      = rowAction (rowOf x0 r) (rowOf x1 r) (matOf x2) (fun k => x3 (ix2 (0 : Fin 1) k)) (fun k q => x4 (ix2 k (lo q)))
          (fun k q => x4 (ix2 k (hi q))) (fun q => x5 (ix2 (0 : Fin 1) (lo q))) (fun q => x5 (ix2 (0 : Fin 1) (hi q))) q := by
  unfold k0_pay8
  show (Ideal.ofBits .f32 0x3F800000#32 : EReal) * Ideal.tanh (k0_pay7 (F := Ideal) x0 x1 x2 x3 x4 x5 (ix2 r q)) = _
  rw [pay7_apply]
  rfl

/-- The squared deviation of the sample from the mean. -/
theorem pay9_apply (q : Fin 32) :
    k0_pay9 (F := Ideal) x0 x1 x2 x3 x4 x5 (ix2 r q)
      = (k0_pay7 (F := Ideal) x0 x1 x2 x3 x4 x5 (ix2 r q) - k0_pay4 (F := Ideal) x0 x2 x3 x4 x5 (ix2 r q))
        * (k0_pay7 (F := Ideal) x0 x1 x2 x3 x4 x5 (ix2 r q) - k0_pay4 (F := Ideal) x0 x2 x3 x4 x5 (ix2 r q)) := rfl

/-- The Gaussian log-density from the three vectors it reads: a row sum, scaled and shifted. -/
theorem pay1_apply (v29 v30 v38 : FVec Ideal S8192x32 .f32) :
    k0_pay1 (F := Ideal) v29 v30 v38 (ix1 r)
      = Ideal.ofBits .f32 0xBF000000#32 * (∑ q : Fin 32, (Ideal.div (v38 (ix2 r q)) (v30 (ix2 r q)) + v29 (ix2 r q)))
        - Ideal.ofBits .f32 0x41EB3F8E#32 := by
  unfold k0_pay1
  exact congrArg (fun s => Ideal.ofBits .f32 0xBF000000#32 * s - Ideal.ofBits .f32 0x41EB3F8E#32)
    (rowSum_apply (addf (divf v38 v30) v29) _ _ _ r)

/-- The log-density of the action from the four vectors it reads. -/
theorem pay2_apply (v29 v30 v36 v38 : FVec Ideal S8192x32 .f32) :
    k0_pay2 (F := Ideal) v29 v30 v36 v38 (ix1 r)
      = k0_pay1 (F := Ideal) v29 v30 v38 (ix1 r)
        - ∑ q : Fin 32, Ideal.log (Ideal.ofBits .f32 0x3F800000#32 - v36 (ix2 r q) * v36 (ix2 r q) + Ideal.ofBits .f32 0x358637BD#32) := by
  unfold k0_pay2
  exact congrArg (fun s => k0_pay1 (F := Ideal) v29 v30 v38 (ix1 r) - s)
    (rowSum_apply (log (addf (subf (broadcast S8192x32 (Scalar.ofBits .f32 0x3F800000#32)) (mulf v36 v36))
      (broadcast S8192x32 (Scalar.ofBits .f32 0x358637BD#32)))) _ _ _ r)

/-! ## The four stored values, at a block index -/

/-- The stored Gaussian log-density of row `r`. -/
theorem gaussLogp_apply :
    k0_pay1 (F := Ideal) (k0_pay5 x0 x2 x3 x4 x5) (k0_pay6 x0 x2 x3 x4 x5) (k0_pay9 x0 x1 x2 x3 x4 x5) (ix1 r)
      = rowGaussLogp (rowOf x0 r) (rowOf x1 r) (matOf x2) (fun k => x3 (ix2 (0 : Fin 1) k)) (fun k q => x4 (ix2 k (lo q)))
          (fun k q => x4 (ix2 k (hi q))) (fun q => x5 (ix2 (0 : Fin 1) (lo q))) (fun q => x5 (ix2 (0 : Fin 1) (hi q))) := by
  rw [pay1_apply]
  simp only [pay9_apply, pay6_apply, pay7_apply, pay4_apply, pay5_apply]
  rfl

/-- The stored log-density of row `r`'s action. -/
theorem logp_apply :
    k0_pay2 (F := Ideal) (k0_pay5 x0 x2 x3 x4 x5) (k0_pay6 x0 x2 x3 x4 x5) (k0_pay8 x0 x1 x2 x3 x4 x5)
        (k0_pay9 x0 x1 x2 x3 x4 x5) (ix1 r)
      = rowLogp (rowOf x0 r) (rowOf x1 r) (matOf x2) (fun k => x3 (ix2 (0 : Fin 1) k)) (fun k q => x4 (ix2 k (lo q)))
          (fun k q => x4 (ix2 k (hi q))) (fun q => x5 (ix2 (0 : Fin 1) (lo q))) (fun q => x5 (ix2 (0 : Fin 1) (hi q))) := by
  rw [pay2_apply, gaussLogp_apply]
  simp only [pay8_apply]
  rfl

end payloads

end Cert.KernelIdeal.KerValue

end
-- ==== Proof.Blocks.lean ====
/-
  What a grid point's input blocks hold, in terms of the program's arguments.

  Before the kernel is launched the host prepares four arrays: the backbone weights converted to bf16, the backbone
  bias reshaped to one row, the two heads' weight matrices set side by side (columns 0–31 the mean's, 32–63 the
  log-variance's) and converted, and the two heads' biases set end to end and reshaped to one row. On the extended
  reals a conversion is the identity, a reshape of a vector to one row reads the vector's coordinate, and a
  concatenation reads its first piece below the first extent and its second piece, shifted, at or above it.
  Grid point `t` (of 32) holds rows `8192 t … 8192 t + 8191` of the observations and of the noise, and the whole of each
  of the four prepared arrays. So the arguments of `Cert.Actor`'s row functions, read off the blocks at block row `r`,
  are row `8192 t + r` of the observations and the noise, and the weights and biases themselves.
-/
import proofs.«146228_j83099027243561_2_alg».proof.Proof.Gen.KernelIdeal.Value
import proofs.«146228_j83099027243561_2_alg».proof.Proof.KernelRows

noncomputable section
namespace Cert.KernelIdeal.KerValue
open Cert.KernelIdeal Cert.KernelIdeal.Gen Idealize.ShloMosaic Idealize.ShloMosaic.TcCoe Idealize.SL.Sem
open Idealize.ShloMosaic.ValueIdx Cert.Actor
open Idealize.ShloMosaic.Pipeline (Dat)

variable (m : (ℓ : Loc nD τ sig) → Buf (Elt Ideal) ℓ) (ρ : Dev nD → PrngReg)

/-! ## What the region finds in the arrays the host wrote -/

/-- The backbone weights, converted to bf16: the identity on the extended reals. -/
theorem V_wbb (c : Dev nD) : (V m c main_v0 : S128x256.Idx → EReal) = m ((c : Thread nD τ).loc main_arg2) := by
  dsimp only [Gen.V, Gen.hostOps0]; after_results; rfl

/-- The backbone bias as a one-row matrix. -/
theorem V_bbb (c : Dev nD) : (V m c main_v1 : S1x256.Idx → EReal)
    = shapeCast S1x256 (m ((c : Thread nD τ).loc main_arg3)) Facts₀.shapeCasts_S256_S1x256 := by
  dsimp only [Gen.V, Gen.hostOps0]; after_results; rfl

/-- The two heads' weights side by side (then converted to bf16: the identity). -/
theorem V_wh (c : Dev nD) : (V m c main_v3 : S256x64.Idx → EReal)
    = concatenate S256x64 1 [⟨S256x32, m ((c : Thread nD τ).loc main_arg4)⟩, ⟨S256x32, m ((c : Thread nD τ).loc main_arg6)⟩]
        Facts₀.concatenates_S256x32_S256x32_S256x64_d1 := by
  dsimp only [Gen.V, Gen.hostOps0]; after_results; rfl

/-- The two heads' biases end to end, as a one-row matrix. -/
theorem V_bh (c : Dev nD) : (V m c main_v5 : S1x64.Idx → EReal)
    = shapeCast S1x64 (concatenate S64 0 [⟨S32, m ((c : Thread nD τ).loc main_arg5)⟩, ⟨S32, m ((c : Thread nD τ).loc main_arg7)⟩]
        Facts₀.concatenates_S32_S32_S64_d0) Facts₀.shapeCasts_S64_S1x64 := by
  dsimp only [Gen.V, Gen.hostOps0]; after_results; rfl

/-! ## Those arrays at an index -/

/-- The bias row at column `k` is the bias's coordinate `k`. -/
theorem bbb_at (c : Dev nD) (k : Fin 256) :
    V m c main_v1 (ix2 (0 : Fin 1) k) = m ((c : Thread nD τ).loc main_arg3) (ix1 k) :=
  (congrFun (V_bbb m c) _).trans (shapeCast_a_1a_apply _ _ 0 k)

/-- The left half of the fused weights is the mean's weights. -/
theorem wh_lo (c : Dev nD) (k : Fin 256) (q : Fin 32) :
    V m c main_v3 (ix2 k (lo q)) = m ((c : Thread nD τ).loc main_arg4) (ix2 k q) :=
  (congrFun (V_wh m c) _).trans
    (concatenate_pair_apply_left (t := S256x64) (s₁ := S256x32) (s₂ := S256x32) (1 : Fin 2) _ _ _ (ix2 k (lo q)) rfl (ix2 k q)
      (fun b => by match b with | ⟨0, _⟩ => rfl | ⟨1, _⟩ => rfl))

/-- The right half is the log-variance's weights. -/
theorem wh_hi (c : Dev nD) (k : Fin 256) (q : Fin 32) :
    V m c main_v3 (ix2 k (hi q)) = m ((c : Thread nD τ).loc main_arg6) (ix2 k q) :=
  (congrFun (V_wh m c) _).trans
    (concatenate_pair_apply_right (t := S256x64) (s₁ := S256x32) (s₂ := S256x32) (1 : Fin 2) _ _ _ (ix2 k (hi q)) rfl rfl (ix2 k q)
      (fun b hb => by match b, hb with | ⟨0, _⟩, _ => rfl | ⟨1, _⟩, hb => exact absurd rfl hb)
      (Nat.add_comm _ _))

/-- The left half of the fused bias is the mean's bias. -/
theorem bh_lo (c : Dev nD) (q : Fin 32) :
    V m c main_v5 (ix2 (0 : Fin 1) (lo q)) = m ((c : Thread nD τ).loc main_arg5) (ix1 q) :=
  (congrFun (V_bh m c) _).trans ((shapeCast_a_1a_apply _ _ 0 (lo q)).trans
    (concatenate_pair_apply_left (t := S64) (s₁ := S32) (s₂ := S32) (0 : Fin 1) _ _ _ (ix1 (lo q)) rfl (ix1 q)
      (fun b => by match b with | ⟨0, _⟩ => rfl)))

/-- The right half is the log-variance's bias. -/
theorem bh_hi (c : Dev nD) (q : Fin 32) :
    V m c main_v5 (ix2 (0 : Fin 1) (hi q)) = m ((c : Thread nD τ).loc main_arg7) (ix1 q) :=
  (congrFun (V_bh m c) _).trans ((shapeCast_a_1a_apply _ _ 0 (hi q)).trans
    (concatenate_pair_apply_right (t := S64) (s₁ := S32) (s₂ := S32) (0 : Fin 1) _ _ _ (ix1 (hi q)) rfl rfl (ix1 q)
      (fun b hb => by match b, hb with | ⟨0, _⟩, hb => exact absurd rfl hb)
      (Nat.add_comm _ _)))

/-! ## Which block each window holds at a grid point -/

/-- The observations' and the noise's blocks are the point's 8192 rows, all columns. -/
theorem rows_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The weights' and the biases' blocks are their whole arrays at every point. -/
theorem whole_idx : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The four outputs' blocks are the point's 8192 rows. -/
theorem out_idx : ∀ t : Fin cfg0.N, win0_6.index t (0 : Fin 2) = t.val ∧ win0_6.index t (1 : Fin 2) = 0
    ∧ win0_7.index t (0 : Fin 2) = t.val ∧ win0_7.index t (1 : Fin 2) = 0
    ∧ win0_8.index t (0 : Fin 1) = t.val ∧ win0_9.index t (0 : Fin 1) = t.val :=
  (by decide +kernel : ∀ t : Fin grid0.N, _)

/-- A grid point is one of 32. -/
theorem point_lt (t : Fin cfg0.N) : t.val < 32 := lt_of_lt_of_eq t.isLt N_0

/-- Row `r` of point `t`'s block is row `8192 t + r` of the batch. -/
def blockRow (t : Fin cfg0.N) (r : Fin 8192) : Fin 262144 :=
  ⟨t.val * 8192 + r.val, by have := point_lt t; have := r.isLt; omega⟩

/-! ## The input blocks, read -/

section reads

variable (c : Dev nD) (t : Fin cfg0.N)

theorem obs_block (r : Fin 8192) (k : Fin 128) :
    iblk m c 0 t (ix2 r k) = m ((c : Thread nD τ).loc main_arg0) (ix2 (blockRow t r) k) := by
  show V m c main_arg0 (((cfg0.win 0).blk t).view.emb (ix2 r k)) = _
  rw [V_main_arg0]
  refine congrArg _ (funext fun a => Fin.ext ?_)
  obtain ⟨e0, e1, -, -⟩ := rows_idx t
  match a with
  | ⟨0, _⟩ => show win0_0.index t (0 : Fin 2) * 8192 + 1 * r.val = t.val * 8192 + r.val; rw [e0]; omega
  | ⟨1, _⟩ => show win0_0.index t (1 : Fin 2) * 128 + 1 * k.val = k.val; rw [e1]; omega

theorem noise_block (r : Fin 8192) (q : Fin 32) :
    iblk m c 1 t (ix2 r q) = m ((c : Thread nD τ).loc main_arg1) (ix2 (blockRow t r) q) := by
  show V m c main_arg1 (((cfg0.win 1).blk t).view.emb (ix2 r q)) = _
  rw [V_main_arg1]
  refine congrArg _ (funext fun a => Fin.ext ?_)
  obtain ⟨-, -, e0, e1⟩ := rows_idx t
  match a with
  | ⟨0, _⟩ => show win0_1.index t (0 : Fin 2) * 8192 + 1 * r.val = t.val * 8192 + r.val; rw [e0]; omega
  | ⟨1, _⟩ => show win0_1.index t (1 : Fin 2) * 32 + 1 * q.val = q.val; rw [e1]; omega

theorem wbb_block (k : Fin 128) (j : Fin 256) :
    iblk m c 2 t (ix2 k j) = m ((c : Thread nD τ).loc main_arg2) (ix2 k j) := by
  show V m c main_v0 (((cfg0.win 2).blk t).view.emb (ix2 k j)) = _
  rw [V_wbb]
  refine congrArg _ (funext fun a => Fin.ext ?_)
  obtain ⟨e0, e1, -⟩ := whole_idx t
  match a with
  | ⟨0, _⟩ => show win0_2.index t (0 : Fin 2) * 128 + 1 * k.val = k.val; rw [e0]; omega
  | ⟨1, _⟩ => show win0_2.index t (1 : Fin 2) * 256 + 1 * j.val = j.val; rw [e1]; omega

theorem bbb_block (k : Fin 256) :
    iblk m c 3 t (ix2 (0 : Fin 1) k) = m ((c : Thread nD τ).loc main_arg3) (ix1 k) := by
  show V m c main_v1 (((cfg0.win 3).blk t).view.emb (ix2 (0 : Fin 1) k)) = _
  refine Eq.trans (congrArg _ (funext fun a => Fin.ext ?_)) (bbb_at m c k)
  obtain ⟨-, -, e0, e1, -⟩ := whole_idx t
  match a with
  | ⟨0, _⟩ => show win0_3.index t (0 : Fin 2) * 1 + 1 * 0 = 0; rw [e0]
  | ⟨1, _⟩ => show win0_3.index t (1 : Fin 2) * 256 + 1 * k.val = k.val; rw [e1]; omega

theorem wh_block (k : Fin 256) (j : Fin 64) :
    iblk m c 4 t (ix2 k j) = V m c main_v3 (ix2 k j) := by
  show V m c main_v3 (((cfg0.win 4).blk t).view.emb (ix2 k j)) = _
  refine congrArg _ (funext fun a => Fin.ext ?_)
  obtain ⟨-, -, -, -, e0, e1, -⟩ := whole_idx t
  match a with
  | ⟨0, _⟩ => show win0_4.index t (0 : Fin 2) * 256 + 1 * k.val = k.val; rw [e0]; omega
  | ⟨1, _⟩ => show win0_4.index t (1 : Fin 2) * 64 + 1 * j.val = j.val; rw [e1]; omega

theorem bh_block (j : Fin 64) :
    iblk m c 5 t (ix2 (0 : Fin 1) j) = V m c main_v5 (ix2 (0 : Fin 1) j) := by
  show V m c main_v5 (((cfg0.win 5).blk t).view.emb (ix2 (0 : Fin 1) j)) = _
  refine congrArg _ (funext fun a => Fin.ext ?_)
  obtain ⟨-, -, -, -, -, -, e0, e1⟩ := whole_idx t
  match a with
  | ⟨0, _⟩ => show win0_5.index t (0 : Fin 2) * 1 + 1 * 0 = 0; rw [e0]
  | ⟨1, _⟩ => show win0_5.index t (1 : Fin 2) * 64 + 1 * j.val = j.val; rw [e1]; omega

end reads

/-! ## The row functions' arguments, from the blocks -/

section params

variable (c : Dev nD) (t : Fin cfg0.N)

theorem p_obs (r : Fin 8192) :
    rowOf (a := 8192) (b := 128) (iblk m c 0 t) r = rowOf (m ((c : Thread nD τ).loc main_arg0)) (blockRow t r) :=
  funext fun k => obs_block m c t r k
theorem p_noise (r : Fin 8192) :
    rowOf (a := 8192) (b := 32) (iblk m c 1 t) r = rowOf (m ((c : Thread nD τ).loc main_arg1)) (blockRow t r) :=
  funext fun q => noise_block m c t r q
theorem p_wbb : matOf (a := 128) (b := 256) (iblk m c 2 t) = matOf (m ((c : Thread nD τ).loc main_arg2)) :=
  funext fun k => funext fun j => wbb_block m c t k j
theorem p_bbb : (fun k : Fin 256 => iblk m c 3 t (ix2 (0 : Fin 1) k)) = vecOf (m ((c : Thread nD τ).loc main_arg3)) :=
  funext fun k => bbb_block m c t k
theorem p_wmu : (fun (k : Fin 256) (q : Fin 32) => iblk m c 4 t (ix2 k (lo q))) = matOf (m ((c : Thread nD τ).loc main_arg4)) :=
  funext fun k => funext fun q => (wh_block m c t k (lo q)).trans (wh_lo m c k q)
theorem p_wsig : (fun (k : Fin 256) (q : Fin 32) => iblk m c 4 t (ix2 k (hi q))) = matOf (m ((c : Thread nD τ).loc main_arg6)) :=
  funext fun k => funext fun q => (wh_block m c t k (hi q)).trans (wh_hi m c k q)
theorem p_bmu : (fun q : Fin 32 => iblk m c 5 t (ix2 (0 : Fin 1) (lo q))) = vecOf (m ((c : Thread nD τ).loc main_arg5)) :=
  funext fun q => (bh_block m c t (lo q)).trans (bh_lo m c q)
theorem p_bsig : (fun q : Fin 32 => iblk m c 5 t (ix2 (0 : Fin 1) (hi q))) = vecOf (m ((c : Thread nD τ).loc main_arg7)) :=
  funext fun q => (bh_block m c t (hi q)).trans (bh_hi m c q)

end params

/-- Both zero offsets of a rank-2 whole-block access. -/
theorem hz2 : (![0, 0] : Fin 2 → Nat) = fun _ => 0 := funext fun a => by fin_cases a <;> rfl
/-- The zero offset of a rank-1 whole-block access. -/
theorem hz1 : (![0] : Fin 1 → Nat) = fun _ => 0 := funext fun a => by fin_cases a <;> rfl

end Cert.KernelIdeal.KerValue

end
-- ==== Proof.OutAction.lean ====
/-
  The action array after the run.

  Point `t` stores, as its block of the action array, the body's action vector; at block row `r` and column `q` that is
  the action of batch row `8192 t + r`, and the block lies at exactly those rows of the array. Every row of the array
  lies in the block of the point its number divided by 8192 names, so the 32 blocks cover the array and it ends as the
  action of every row.
-/
import proofs.«146228_j83099027243561_2_alg».proof.Proof.Blocks

noncomputable section
namespace Cert.KernelIdeal.KerValue
open Cert.KernelIdeal Cert.KernelIdeal.Gen Idealize.ShloMosaic Idealize.ShloMosaic.TcCoe Idealize.SL.Sem
open Idealize.ShloMosaic.ValueIdx Cert.Actor
open Idealize.ShloMosaic.Pipeline (Dat)

variable (m : (ℓ : Loc nD τ sig) → Buf (Elt Ideal) ℓ)

/-- The action array as a function of the arguments. -/
abbrev outAction (c : Dev nD) : Mat 262144 32 :=
  Actor.action (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where point `t`'s block of the action array lies. -/
theorem action_index (t : Fin cfg0.N) (r : Fin 8192) (q : Fin 32) :
    ((cfg0.win 6).blk t).view.emb (ix2 r q) = ix2 (blockRow t r) q := by
  funext a; apply Fin.ext
  obtain ⟨e0, e1, -⟩ := out_idx t
  match a with
  | ⟨0, _⟩ => show win0_6.index t (0 : Fin 2) * 8192 + 1 * r.val = t.val * 8192 + r.val; rw [e0]; omega
  | ⟨1, _⟩ => show win0_6.index t (1 : Fin 2) * 32 + 1 * q.val = q.val; rw [e1]; omega

/-- What point `t` writes back is block `t` of the action array. -/
theorem flushed_action (c : Dev nD) (t : Fin cfg0.N) :
    (dats m 0 c).flushed 6 t = ((cfg0.win 6).blk t).view.read (Elt Ideal) (outAction m c) := by
  rw [Value.flushed6]
  unfold out0_6
  rw [View.canon_unit_zero hz2]
  simp only [View.ld_unit_zero (S := S8192x128) hz2, View.ld_unit_zero (S := S8192x32) hz2, View.ld_unit_zero (S := S128x256) hz2, View.ld_unit_zero (S := S1x256) hz2, View.ld_unit_zero (S := S256x64) hz2, View.ld_unit_zero (S := S1x64) hz2]
  funext j
  obtain ⟨r, q, rfl⟩ : ∃ (r : Fin 8192) (q : Fin 32), j = ix2 r q := ⟨j 0, j 1, eq_ix2 j⟩
  show k0_pay8 (F := Ideal) (iblk m c 0 t) (iblk m c 1 t) (iblk m c 2 t) (iblk m c 3 t) (iblk m c 4 t) (iblk m c 5 t) (ix2 r q)
    = outAction m c (((cfg0.win 6).blk t).view.emb (ix2 r q))
  rw [action_index t r q]
  refine (pay8_apply (iblk m c 0 t) (iblk m c 1 t) (iblk m c 2 t) (iblk m c 3 t) (iblk m c 4 t) (iblk m c 5 t) r q).trans ?_
  rw [p_obs, p_noise, p_wbb, p_bbb, p_wmu, p_wsig, p_bmu, p_bsig]
  rfl

/-- An index of the action array is in point `t`'s block iff each coordinate is in the block's range. -/
theorem mem_action (t : Fin cfg0.N) (i : S262144x32.Idx) :
    i ∈ ((cfg0.win 6).blk t).view.set ↔ ∀ a : Fin 2, win0_6.index t a * S8192x32.size a ≤ (i a).val
      ∧ (i a).val < win0_6.index t a * S8192x32.size a + S8192x32.size a := by
  show i ∈ ((View.whole main_v6_0).slice (win0_6.rect t)).set ↔ _
  rw [View.set_slice_whole, Rect.mem_set_unit]
  exact Iff.rfl

/-- Every row lies in the block of the point its number divided by 8192 names. -/
theorem cover_action (i : S262144x32.Idx) :
    ∃ t : Fin cfg0.N, (cfg0.win 6).flush t = true ∧ i ∈ ((cfg0.win 6).blk t).view.set := by
  have hi0 : (i 0).val < 262144 := (i 0).isLt
  have hi1 : (i 1).val < 32 := (i 1).isLt
  obtain ⟨t, ht⟩ : ∃ t : Fin cfg0.N, t.val = (i 0).val / 8192 :=
    ⟨⟨(i 0).val / 8192, lt_of_lt_of_eq (by omega) N_0.symm⟩, rfl⟩
  refine ⟨t, flush0_6 t, ?_⟩
  rw [mem_action]
  obtain ⟨e0, e1, -⟩ := out_idx t
  intro a
  match a with
  | ⟨0, _⟩ =>
    show win0_6.index t (0 : Fin 2) * 8192 ≤ (i 0).val ∧ (i 0).val < win0_6.index t (0 : Fin 2) * 8192 + 8192
    rw [e0, ht]; omega
  | ⟨1, _⟩ =>
    show win0_6.index t (1 : Fin 2) * 32 ≤ (i 1).val ∧ (i 1).val < win0_6.index t (1 : Fin 2) * 32 + 32
    rw [e1]; omega

/-- The action array after the run. -/
theorem final_action (c : Dev nD) : (dats m 0 c).arrAt 6 cfg0.N = outAction m c :=
  (dats m 0 c).arrAt_eq_of_cover 6 (outAction m c) (fun t _ => flushed_action m c t) cover_action

end Cert.KernelIdeal.KerValue

end
-- ==== Proof.OutSample.lean ====
/-
  The array of unsquashed samples after the run.

  Point `t` stores, as its block, the body's sample vector; at block row `r` and column `q` that is the sample of batch
  row `8192 t + r`, at exactly those rows of the array, and the 32 blocks cover the array.
-/
import proofs.«146228_j83099027243561_2_alg».proof.Proof.Blocks

noncomputable section
namespace Cert.KernelIdeal.KerValue
open Cert.KernelIdeal Cert.KernelIdeal.Gen Idealize.ShloMosaic Idealize.ShloMosaic.TcCoe Idealize.SL.Sem
open Idealize.ShloMosaic.ValueIdx Cert.Actor
open Idealize.ShloMosaic.Pipeline (Dat)

variable (m : (ℓ : Loc nD τ sig) → Buf (Elt Ideal) ℓ)

/-- The sample array as a function of the arguments. -/
abbrev outSample (c : Dev nD) : Mat 262144 32 :=
  Actor.sample (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where point `t`'s block of the sample array lies. -/
theorem sample_index (t : Fin cfg0.N) (r : Fin 8192) (q : Fin 32) :
    ((cfg0.win 7).blk t).view.emb (ix2 r q) = ix2 (blockRow t r) q := by
  funext a; apply Fin.ext
  obtain ⟨-, -, e0, e1, -⟩ := out_idx t
  match a with
  | ⟨0, _⟩ => show win0_7.index t (0 : Fin 2) * 8192 + 1 * r.val = t.val * 8192 + r.val; rw [e0]; omega
  | ⟨1, _⟩ => show win0_7.index t (1 : Fin 2) * 32 + 1 * q.val = q.val; rw [e1]; omega

/-- What point `t` writes back is block `t` of the sample array. -/
theorem flushed_sample (c : Dev nD) (t : Fin cfg0.N) :
    (dats m 0 c).flushed 7 t = ((cfg0.win 7).blk t).view.read (Elt Ideal) (outSample m c) := by
  rw [Value.flushed7]
  unfold out0_7
  rw [View.canon_unit_zero hz2]
  simp only [View.ld_unit_zero (S := S8192x128) hz2, View.ld_unit_zero (S := S8192x32) hz2, View.ld_unit_zero (S := S128x256) hz2, View.ld_unit_zero (S := S1x256) hz2, View.ld_unit_zero (S := S256x64) hz2, View.ld_unit_zero (S := S1x64) hz2]
  funext j
  obtain ⟨r, q, rfl⟩ : ∃ (r : Fin 8192) (q : Fin 32), j = ix2 r q := ⟨j 0, j 1, eq_ix2 j⟩
  show k0_pay7 (F := Ideal) (iblk m c 0 t) (iblk m c 1 t) (iblk m c 2 t) (iblk m c 3 t) (iblk m c 4 t) (iblk m c 5 t) (ix2 r q)
    = outSample m c (((cfg0.win 7).blk t).view.emb (ix2 r q))
  rw [sample_index t r q]
  refine (pay7_apply (iblk m c 0 t) (iblk m c 1 t) (iblk m c 2 t) (iblk m c 3 t) (iblk m c 4 t) (iblk m c 5 t) r q).trans ?_
  rw [p_obs, p_noise, p_wbb, p_bbb, p_wmu, p_wsig, p_bmu, p_bsig]
  rfl

/-- An index of the sample array is in point `t`'s block iff each coordinate is in the block's range. -/
theorem mem_sample (t : Fin cfg0.N) (i : S262144x32.Idx) :
    i ∈ ((cfg0.win 7).blk t).view.set ↔ ∀ a : Fin 2, win0_7.index t a * S8192x32.size a ≤ (i a).val
      ∧ (i a).val < win0_7.index t a * S8192x32.size a + S8192x32.size a := by
  show i ∈ ((View.whole main_v6_1).slice (win0_7.rect t)).set ↔ _
  rw [View.set_slice_whole, Rect.mem_set_unit]
  exact Iff.rfl

/-- Every row lies in the block of the point its number divided by 8192 names. -/
theorem cover_sample (i : S262144x32.Idx) :
    ∃ t : Fin cfg0.N, (cfg0.win 7).flush t = true ∧ i ∈ ((cfg0.win 7).blk t).view.set := by
  have hi0 : (i 0).val < 262144 := (i 0).isLt
  have hi1 : (i 1).val < 32 := (i 1).isLt
  obtain ⟨t, ht⟩ : ∃ t : Fin cfg0.N, t.val = (i 0).val / 8192 :=
    ⟨⟨(i 0).val / 8192, lt_of_lt_of_eq (by omega) N_0.symm⟩, rfl⟩
  refine ⟨t, flush0_7 t, ?_⟩
  rw [mem_sample]
  obtain ⟨-, -, e0, e1, -⟩ := out_idx t
  intro a
  match a with
  | ⟨0, _⟩ =>
    show win0_7.index t (0 : Fin 2) * 8192 ≤ (i 0).val ∧ (i 0).val < win0_7.index t (0 : Fin 2) * 8192 + 8192
    rw [e0, ht]; omega
  | ⟨1, _⟩ =>
    show win0_7.index t (1 : Fin 2) * 32 ≤ (i 1).val ∧ (i 1).val < win0_7.index t (1 : Fin 2) * 32 + 32
    rw [e1]; omega

/-- The sample array after the run. -/
theorem final_sample (c : Dev nD) : (dats m 0 c).arrAt 7 cfg0.N = outSample m c :=
  (dats m 0 c).arrAt_eq_of_cover 7 (outSample m c) (fun t _ => flushed_sample m c t) cover_sample

end Cert.KernelIdeal.KerValue

end
-- ==== Proof.OutLogp.lean ====
/-
  The array of the actions' log-densities after the run.

  Point `t` stores, as its block of 8192 entries, the body's log-density vector; at block row `r` that is the log-density
  of batch row `8192 t + r`'s action, at exactly that entry of the array, and the 32 blocks cover the array.
-/
import proofs.«146228_j83099027243561_2_alg».proof.Proof.Blocks

noncomputable section
namespace Cert.KernelIdeal.KerValue
open Cert.KernelIdeal Cert.KernelIdeal.Gen Idealize.ShloMosaic Idealize.ShloMosaic.TcCoe Idealize.SL.Sem
open Idealize.ShloMosaic.ValueIdx Cert.Actor
open Idealize.ShloMosaic.Pipeline (Dat)

variable (m : (ℓ : Loc nD τ sig) → Buf (Elt Ideal) ℓ)

/-- The log-density array as a function of the arguments. -/
abbrev outLogp (c : Dev nD) : Vect 262144 :=
  Actor.logp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where point `t`'s block of the array lies. -/
theorem logp_index (t : Fin cfg0.N) (r : Fin 8192) :
    ((cfg0.win 8).blk t).view.emb (ix1 r) = ix1 (blockRow t r) := by
  funext a; apply Fin.ext
  have e0 := (out_idx t).2.2.2.2.1
  match a with
  | ⟨0, _⟩ => show win0_8.index t (0 : Fin 1) * 8192 + 1 * r.val = t.val * 8192 + r.val; rw [e0]; omega

/-- What point `t` writes back is block `t` of the array. -/
theorem flushed_logp (c : Dev nD) (t : Fin cfg0.N) :
    (dats m 0 c).flushed 8 t = ((cfg0.win 8).blk t).view.read (Elt Ideal) (outLogp m c) := by
  rw [Value.flushed8]
  unfold out0_8
  rw [View.canon_unit_zero hz1]
  simp only [View.ld_unit_zero (S := S8192x128) hz2, View.ld_unit_zero (S := S8192x32) hz2, View.ld_unit_zero (S := S128x256) hz2, View.ld_unit_zero (S := S1x256) hz2, View.ld_unit_zero (S := S256x64) hz2, View.ld_unit_zero (S := S1x64) hz2]
  funext j
  obtain ⟨r, rfl⟩ : ∃ r : Fin 8192, j = ix1 r := ⟨j 0, eq_ix1 j⟩
  show k0_pay2 (F := Ideal) (k0_pay5 (iblk m c 0 t) (iblk m c 2 t) (iblk m c 3 t) (iblk m c 4 t) (iblk m c 5 t)) (k0_pay6 (iblk m c 0 t) (iblk m c 2 t) (iblk m c 3 t) (iblk m c 4 t) (iblk m c 5 t))
      (k0_pay8 (iblk m c 0 t) (iblk m c 1 t) (iblk m c 2 t) (iblk m c 3 t) (iblk m c 4 t) (iblk m c 5 t)) (k0_pay9 (iblk m c 0 t) (iblk m c 1 t) (iblk m c 2 t) (iblk m c 3 t) (iblk m c 4 t) (iblk m c 5 t)) (ix1 r)
    = outLogp m c (((cfg0.win 8).blk t).view.emb (ix1 r))
  rw [logp_index t r]
  refine (logp_apply (iblk m c 0 t) (iblk m c 1 t) (iblk m c 2 t) (iblk m c 3 t) (iblk m c 4 t) (iblk m c 5 t) r).trans ?_
  rw [p_obs, p_noise, p_wbb, p_bbb, p_wmu, p_wsig, p_bmu, p_bsig]
  rfl

/-- An index of the array is in point `t`'s block iff its coordinate is in the block's range. -/
theorem mem_logp (t : Fin cfg0.N) (i : S262144.Idx) :
    i ∈ ((cfg0.win 8).blk t).view.set ↔ ∀ a : Fin 1, win0_8.index t a * S8192.size a ≤ (i a).val
      ∧ (i a).val < win0_8.index t a * S8192.size a + S8192.size a := by
  show i ∈ ((View.whole main_v6_2).slice (win0_8.rect t)).set ↔ _
  rw [View.set_slice_whole, Rect.mem_set_unit]
  exact Iff.rfl

/-- Every row lies in the block of the point its number divided by 8192 names. -/
theorem cover_logp (i : S262144.Idx) :
    ∃ t : Fin cfg0.N, (cfg0.win 8).flush t = true ∧ i ∈ ((cfg0.win 8).blk t).view.set := by
  have hi0 : (i 0).val < 262144 := (i 0).isLt
  obtain ⟨t, ht⟩ : ∃ t : Fin cfg0.N, t.val = (i 0).val / 8192 :=
    ⟨⟨(i 0).val / 8192, lt_of_lt_of_eq (by omega) N_0.symm⟩, rfl⟩
  refine ⟨t, flush0_8 t, ?_⟩
  rw [mem_logp]
  have e0 := (out_idx t).2.2.2.2.1
  intro a
  match a with
  | ⟨0, _⟩ =>
    show win0_8.index t (0 : Fin 1) * 8192 ≤ (i 0).val ∧ (i 0).val < win0_8.index t (0 : Fin 1) * 8192 + 8192
    rw [e0, ht]; omega

/-- The array after the run. -/
theorem final_logp (c : Dev nD) : (dats m 0 c).arrAt 8 cfg0.N = outLogp m c :=
  (dats m 0 c).arrAt_eq_of_cover 8 (outLogp m c) (fun t _ => flushed_logp m c t) cover_logp

end Cert.KernelIdeal.KerValue

end
-- ==== Proof.OutGaussLogp.lean ====
/-
  The array of the samples' Gaussian log-densities after the run.

  Point `t` stores, as its block of 8192 entries, the body's Gaussian log-density vector; at block row `r` that is the
  Gaussian log-density of batch row `8192 t + r`'s sample, at exactly that entry of the array, and the 32 blocks cover
  the array.
-/
import proofs.«146228_j83099027243561_2_alg».proof.Proof.Blocks

noncomputable section
namespace Cert.KernelIdeal.KerValue
open Cert.KernelIdeal Cert.KernelIdeal.Gen Idealize.ShloMosaic Idealize.ShloMosaic.TcCoe Idealize.SL.Sem
open Idealize.ShloMosaic.ValueIdx Cert.Actor
open Idealize.ShloMosaic.Pipeline (Dat)

variable (m : (ℓ : Loc nD τ sig) → Buf (Elt Ideal) ℓ)

/-- The Gaussian log-density array as a function of the arguments. -/
abbrev outGaussLogp (c : Dev nD) : Vect 262144 :=
  Actor.gaussLogp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where point `t`'s block of the array lies. -/
theorem gaussLogp_index (t : Fin cfg0.N) (r : Fin 8192) :
    ((cfg0.win 9).blk t).view.emb (ix1 r) = ix1 (blockRow t r) := by
  funext a; apply Fin.ext
  have e0 := (out_idx t).2.2.2.2.2
  match a with
  | ⟨0, _⟩ => show win0_9.index t (0 : Fin 1) * 8192 + 1 * r.val = t.val * 8192 + r.val; rw [e0]; omega

/-- What point `t` writes back is block `t` of the array. -/
theorem flushed_gaussLogp (c : Dev nD) (t : Fin cfg0.N) :
    (dats m 0 c).flushed 9 t = ((cfg0.win 9).blk t).view.read (Elt Ideal) (outGaussLogp m c) := by
  rw [Value.flushed9]
  unfold out0_9
  rw [View.canon_unit_zero hz1]
  simp only [View.ld_unit_zero (S := S8192x128) hz2, View.ld_unit_zero (S := S8192x32) hz2, View.ld_unit_zero (S := S128x256) hz2, View.ld_unit_zero (S := S1x256) hz2, View.ld_unit_zero (S := S256x64) hz2, View.ld_unit_zero (S := S1x64) hz2]
  funext j
  obtain ⟨r, rfl⟩ : ∃ r : Fin 8192, j = ix1 r := ⟨j 0, eq_ix1 j⟩
  show k0_pay1 (F := Ideal) (k0_pay5 (iblk m c 0 t) (iblk m c 2 t) (iblk m c 3 t) (iblk m c 4 t) (iblk m c 5 t)) (k0_pay6 (iblk m c 0 t) (iblk m c 2 t) (iblk m c 3 t) (iblk m c 4 t) (iblk m c 5 t))
      (k0_pay9 (iblk m c 0 t) (iblk m c 1 t) (iblk m c 2 t) (iblk m c 3 t) (iblk m c 4 t) (iblk m c 5 t)) (ix1 r)
    = outGaussLogp m c (((cfg0.win 9).blk t).view.emb (ix1 r))
  rw [gaussLogp_index t r]
  refine (gaussLogp_apply (iblk m c 0 t) (iblk m c 1 t) (iblk m c 2 t) (iblk m c 3 t) (iblk m c 4 t) (iblk m c 5 t) r).trans ?_
  rw [p_obs, p_noise, p_wbb, p_bbb, p_wmu, p_wsig, p_bmu, p_bsig]
  rfl

/-- An index of the array is in point `t`'s block iff its coordinate is in the block's range. -/
theorem mem_gaussLogp (t : Fin cfg0.N) (i : S262144.Idx) :
    i ∈ ((cfg0.win 9).blk t).view.set ↔ ∀ a : Fin 1, win0_9.index t a * S8192.size a ≤ (i a).val
      ∧ (i a).val < win0_9.index t a * S8192.size a + S8192.size a := by
  show i ∈ ((View.whole main_v6_3).slice (win0_9.rect t)).set ↔ _
  rw [View.set_slice_whole, Rect.mem_set_unit]
  exact Iff.rfl

/-- Every row lies in the block of the point its number divided by 8192 names. -/
theorem cover_gaussLogp (i : S262144.Idx) :
    ∃ t : Fin cfg0.N, (cfg0.win 9).flush t = true ∧ i ∈ ((cfg0.win 9).blk t).view.set := by
  have hi0 : (i 0).val < 262144 := (i 0).isLt
  obtain ⟨t, ht⟩ : ∃ t : Fin cfg0.N, t.val = (i 0).val / 8192 :=
    ⟨⟨(i 0).val / 8192, lt_of_lt_of_eq (by omega) N_0.symm⟩, rfl⟩
  refine ⟨t, flush0_9 t, ?_⟩
  rw [mem_gaussLogp]
  have e0 := (out_idx t).2.2.2.2.2
  intro a
  match a with
  | ⟨0, _⟩ =>
    show win0_9.index t (0 : Fin 1) * 8192 ≤ (i 0).val ∧ (i 0).val < win0_9.index t (0 : Fin 1) * 8192 + 8192
    rw [e0, ht]; omega

/-- The array after the run. -/
theorem final_gaussLogp (c : Dev nD) : (dats m 0 c).arrAt 9 cfg0.N = outGaussLogp m c :=
  (dats m 0 c).arrAt_eq_of_cover 9 (outGaussLogp m c) (fun t _ => flushed_gaussLogp m c t) cover_gaussLogp

end Cert.KernelIdeal.KerValue

end
-- ==== Proof.KernelRun.lean ====
/-
  The kernel's run, read: every weakly fair execution ends with the four result arrays at the policy head's four
  functions of the argument arrays — the action, the unsquashed sample, the action's log-density and the sample's
  Gaussian log-density of every batch row — and the arguments as they were.
-/
import proofs.«146228_j83099027243561_2_alg».proof.Proof.OutAction
import proofs.«146228_j83099027243561_2_alg».proof.Proof.OutSample
import proofs.«146228_j83099027243561_2_alg».proof.Proof.OutLogp
import proofs.«146228_j83099027243561_2_alg».proof.Proof.OutGaussLogp

noncomputable section
namespace Cert.KernelIdeal.KerValue
open Cert.KernelIdeal Cert.KernelIdeal.Gen Idealize.ShloMosaic Idealize.ShloMosaic.TcCoe Idealize.SL.Sem
open Cert.Actor

variable (m : (ℓ : Loc nD τ sig) → Buf (Elt Ideal) ℓ) (ρ : Dev nD → PrngReg)

/-- The run with each result array named as its function of the arguments. -/
theorem run : θ_run defs (onTc (τ := τ) (main (F := Ideal))) ⟨m, fun _ => 0, ρ⟩ fun r => ∀ c : Dev nD,
      r.2.mem ((c : Thread nD τ).loc main_v6_0) = outAction m c
      ∧ r.2.mem ((c : Thread nD τ).loc main_v6_1) = outSample m c
      ∧ r.2.mem ((c : Thread nD τ).loc main_v6_2) = outLogp m c
      ∧ r.2.mem ((c : Thread nD τ).loc main_v6_3) = outGaussLogp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_action m c), (h c).2.1.trans (final_sample m c),
      (h c).2.2.1.trans (final_logp m c), (h c).2.2.2.1.trans (final_gaussLogp m c), (h c).2.2.2.2⟩)
    (Value.run_blocks m ρ)

end Cert.KernelIdeal.KerValue

end
-- ==== Proof.RefRows.lean ====
/-
  The reference computes the policy head row by row.

  Each host operation of the reference, read at an index, takes its operands at one index (or, for a matrix product and
  a row sum, at the indices of one row); chaining these readings from the result back to the arguments gives, at row `p`
  and coordinate `q`, exactly the scalar formulas of `Cert.Actor` applied to row `p` of the observations and of the noise:
  the two matrix products are dot products of one row with one column, the bias broadcasts read one coordinate of the
  bias, the clamps are `min hi (max lo ·)`, the host's transcendental functions are the same functions on the extended
  reals as the kernel's, and a host row sum is its initial value `0` plus the sum.
-/
import proofs.«146228_j83099027243561_2_alg».proof.Proof.Gen.ReferenceIdeal.Read
import proofs.«146228_j83099027243561_2_alg».proof.Proof.Actor

noncomputable section

namespace Cert.ReferenceIdeal.RefValue

open Cert.ReferenceIdeal Cert.ReferenceIdeal.Read Idealize.ShloMosaic Idealize.ShloMosaic.ValueIdx Cert.Actor

/-! ## Where each operation reads its operands -/

theorem lhs_hidden (p : Fin 262144) (j : Fin 256) (k : Fin 128) : lidx_main_v0 (ix2 p j) k = ix2 p k :=
  funext fun a => Fin.ext (by match a with | ⟨0, _⟩ => rfl | ⟨1, _⟩ => rfl)
theorem rhs_hidden (p : Fin 262144) (j : Fin 256) (k : Fin 128) : ridx_main_v0 (ix2 p j) k = ix2 k j :=
  funext fun a => Fin.ext (by match a with | ⟨0, _⟩ => rfl | ⟨1, _⟩ => rfl)
theorem bias_hidden (p : Fin 262144) (j : Fin 256) : idx_main_v1 (idx_main_v2 (ix2 p j)) = ix1 j :=
  funext fun a => Fin.ext (by match a with | ⟨0, _⟩ => rfl)
theorem lhs_mean (p : Fin 262144) (q : Fin 32) (k : Fin 256) : lidx_main_v5 (ix2 p q) k = ix2 p k :=
  funext fun a => Fin.ext (by match a with | ⟨0, _⟩ => rfl | ⟨1, _⟩ => rfl)
theorem rhs_mean (p : Fin 262144) (q : Fin 32) (k : Fin 256) : ridx_main_v5 (ix2 p q) k = ix2 k q :=
  funext fun a => Fin.ext (by match a with | ⟨0, _⟩ => rfl | ⟨1, _⟩ => rfl)
theorem bias_mean (p : Fin 262144) (q : Fin 32) : idx_main_v6 (idx_main_v7 (ix2 p q)) = ix1 q :=
  funext fun a => Fin.ext (by match a with | ⟨0, _⟩ => rfl)
theorem lhs_logvar (p : Fin 262144) (q : Fin 32) (k : Fin 256) : lidx_main_v10 (ix2 p q) k = ix2 p k :=
  funext fun a => Fin.ext (by match a with | ⟨0, _⟩ => rfl | ⟨1, _⟩ => rfl)
theorem rhs_logvar (p : Fin 262144) (q : Fin 32) (k : Fin 256) : ridx_main_v10 (ix2 p q) k = ix2 k q :=
  funext fun a => Fin.ext (by match a with | ⟨0, _⟩ => rfl | ⟨1, _⟩ => rfl)
theorem bias_logvar (p : Fin 262144) (q : Fin 32) : idx_main_v11 (idx_main_v12 (ix2 p q)) = ix1 q :=
  funext fun a => Fin.ext (by match a with | ⟨0, _⟩ => rfl)
theorem row_gauss (p : Fin 262144) (q : Fin 32) : idx_main_v26 (ix1 p) q = ix2 p q :=
  funext fun a => Fin.ext (by match a with | ⟨0, _⟩ => rfl | ⟨1, _⟩ => rfl)
theorem row_squash (p : Fin 262144) (q : Fin 32) : idx_main_v37 (ix1 p) q = ix2 p q :=
  funext fun a => Fin.ext (by match a with | ⟨0, _⟩ => rfl | ⟨1, _⟩ => rfl)

/-! ## The stages, at row `p` -/

section stages

variable (x0 : Mat 262144 128) (x1 : Mat 262144 32) (x2 : Mat 128 256) (x3 : Vect 256)
  (x4 : Mat 256 32) (x5 : Vect 32) (x6 : Mat 256 32) (x7 : Vect 32) (p : Fin 262144)

/-- The hidden layer: a row of the observations against a column of the weights, plus the bias, then the positive part. -/
theorem ref_hidden (j : Fin 256) :
    val_main_v4 (F := Ideal) x0 x2 x3 (ix2 p j) = hidden (rowOf x0 p) (matOf x2) (vecOf x3) j := by
  rw [val_main_v4_apply, val_main_v3_apply, val_main_v0_apply, val_main_v2_apply, val_main_v1_apply,
    val_main_call0_v0_apply, val_main_call0_cst_apply]
  simp only [lhs_hidden, rhs_hidden, bias_hidden]
  rfl

/-- The clamped mean. -/
theorem ref_mean (q : Fin 32) :
    val_main_v9 (F := Ideal) x0 x2 x3 x4 x5 (ix2 p q)
      = mean (rowOf x0 p) (matOf x2) (vecOf x3) (matOf x4) (vecOf x5) q := by
  rw [val_main_v9_apply, val_main_call1_v4_apply, val_main_call1_v3_apply, val_main_cst_0_apply,
    val_main_call1_v2_apply, val_main_call1_v1_apply, val_main_call1_v0_apply, val_main_cst_apply,
    val_main_v8_apply, val_main_v5_apply, val_main_v7_apply, val_main_v6_apply]
  simp only [lhs_mean, rhs_mean, bias_mean, ref_hidden]
  rfl

/-- The clamped log-variance. -/
theorem ref_logvar (q : Fin 32) :
    val_main_v14 (F := Ideal) x0 x2 x3 x6 x7 (ix2 p q)
      = logvar (rowOf x0 p) (matOf x2) (vecOf x3) (matOf x6) (vecOf x7) q := by
  rw [val_main_v14_apply, val_main_call2_v4_apply, val_main_call2_v3_apply, val_main_cst_2_apply,
    val_main_call2_v2_apply, val_main_call2_v1_apply, val_main_call2_v0_apply, val_main_cst_1_apply,
    val_main_v13_apply, val_main_v10_apply, val_main_v12_apply, val_main_v11_apply]
  simp only [lhs_logvar, rhs_logvar, bias_logvar, ref_hidden]
  rfl

/-- The sample before squashing. -/
theorem ref_sample (q : Fin 32) :
    val_main_v18 (F := Ideal) x0 x1 x2 x3 x4 x5 x6 x7 (ix2 p q)
      = rowSample (rowOf x0 p) (rowOf x1 p) (matOf x2) (vecOf x3) (matOf x4) (matOf x6) (vecOf x5) (vecOf x7) q := by
  rw [val_main_v18_apply, val_main_v17_apply, val_main_v16_apply, val_main_v15_apply, ref_mean, ref_logvar]
  rfl

/-- The action. -/
theorem ref_action (q : Fin 32) :
    val_main_v21 (F := Ideal) x0 x1 x2 x3 x4 x5 x6 x7 (ix2 p q)
      = rowAction (rowOf x0 p) (rowOf x1 p) (matOf x2) (vecOf x3) (matOf x4) (matOf x6) (vecOf x5) (vecOf x7) q := by
  rw [val_main_v21_apply, val_main_v20_apply, val_main_cst_3_apply, val_main_v19_apply, ref_sample]
  rfl

/-- One coordinate's term of the Gaussian log-density. -/
theorem ref_gaussTerm (q : Fin 32) :
    val_main_v25 (F := Ideal) x0 x1 x2 x3 x4 x5 x6 x7 (ix2 p q)
      = gaussTerm (mean (rowOf x0 p) (matOf x2) (vecOf x3) (matOf x4) (vecOf x5) q)
          (logvar (rowOf x0 p) (matOf x2) (vecOf x3) (matOf x6) (vecOf x7) q)
          (rowSample (rowOf x0 p) (rowOf x1 p) (matOf x2) (vecOf x3) (matOf x4) (matOf x6) (vecOf x5) (vecOf x7) q) := by
  rw [val_main_v25_apply, val_main_v24_apply, val_main_v23_apply, val_main_v22_apply, val_main_v15_apply,
    ref_sample, ref_mean, ref_logvar]
  rfl

/-- One coordinate's term of the squashing correction. -/
theorem ref_squashTerm (q : Fin 32) :
    val_main_v36 (F := Ideal) x0 x1 x2 x3 x4 x5 x6 x7 (ix2 p q)
      = squashTerm (rowAction (rowOf x0 p) (rowOf x1 p) (matOf x2) (vecOf x3) (matOf x4) (matOf x6) (vecOf x5) (vecOf x7) q) := by
  rw [val_main_v36_apply, val_main_v35_apply, val_main_v34_apply, val_main_cst_8_apply, val_main_v33_apply,
    val_main_v32_apply, val_main_cst_7_apply, val_main_v31_apply, ref_action]
  rfl

/-- The Gaussian log-density: the host's row sum starts from `0`. -/
theorem ref_gaussLogp :
    val_main_v30 (F := Ideal) x0 x1 x2 x3 x4 x5 x6 x7 (ix1 p)
      = rowGaussLogp (rowOf x0 p) (rowOf x1 p) (matOf x2) (vecOf x3) (matOf x4) (matOf x6) (vecOf x5) (vecOf x7) := by
  rw [val_main_v30_apply, val_main_v29_apply, val_main_cst_6_apply, val_main_v28_apply, val_main_v27_apply,
    val_main_cst_5_apply, val_main_v26_apply, val_main_cst_4_apply]
  simp only [row_gauss, ref_gaussTerm, Ideal.ofBits_def, Ideal.ofBits_zero_f32, zero_add]
  rfl

/-- The log-density of the action. -/
theorem ref_logp :
    val_main_v38 (F := Ideal) x0 x1 x2 x3 x4 x5 x6 x7 (ix1 p)
      = rowLogp (rowOf x0 p) (rowOf x1 p) (matOf x2) (vecOf x3) (matOf x4) (matOf x6) (vecOf x5) (vecOf x7) := by
  rw [val_main_v38_apply, ref_gaussLogp, val_main_v37_apply, val_main_cst_9_apply]
  simp only [row_squash, ref_squashTerm, Ideal.ofBits_def, Ideal.ofBits_zero_f32, zero_add]
  rfl

end stages

/-! ## The four results as arrays -/

section arrays

variable (x0 : Mat 262144 128) (x1 : Mat 262144 32) (x2 : Mat 128 256) (x3 : Vect 256)
  (x4 : Mat 256 32) (x5 : Vect 32) (x6 : Mat 256 32) (x7 : Vect 32)

theorem action_eq : val_main_v21 (F := Ideal) x0 x1 x2 x3 x4 x5 x6 x7 = Actor.action x0 x1 x2 x3 x4 x5 x6 x7 := by
  funext i
  obtain ⟨p, q, rfl⟩ : ∃ (p : Fin 262144) (q : Fin 32), i = ix2 p q := ⟨i 0, i 1, eq_ix2 i⟩
  exact ref_action x0 x1 x2 x3 x4 x5 x6 x7 p q

theorem sample_eq : val_main_v18 (F := Ideal) x0 x1 x2 x3 x4 x5 x6 x7 = Actor.sample x0 x1 x2 x3 x4 x5 x6 x7 := by
  funext i
  obtain ⟨p, q, rfl⟩ : ∃ (p : Fin 262144) (q : Fin 32), i = ix2 p q := ⟨i 0, i 1, eq_ix2 i⟩
  exact ref_sample x0 x1 x2 x3 x4 x5 x6 x7 p q

theorem logp_eq : val_main_v38 (F := Ideal) x0 x1 x2 x3 x4 x5 x6 x7 = Actor.logp x0 x1 x2 x3 x4 x5 x6 x7 := by
  funext i
  obtain ⟨p, rfl⟩ : ∃ p : Fin 262144, i = ix1 p := ⟨i 0, eq_ix1 i⟩
  exact ref_logp x0 x1 x2 x3 x4 x5 x6 x7 p

theorem gaussLogp_eq : val_main_v30 (F := Ideal) x0 x1 x2 x3 x4 x5 x6 x7 = Actor.gaussLogp x0 x1 x2 x3 x4 x5 x6 x7 := by
  funext i
  obtain ⟨p, rfl⟩ : ∃ p : Fin 262144, i = ix1 p := ⟨i 0, eq_ix1 i⟩
  exact ref_gaussLogp x0 x1 x2 x3 x4 x5 x6 x7 p

end arrays

end Cert.ReferenceIdeal.RefValue

end
-- ==== Proof.lean ====
/-
  A tiled, fused-head policy kernel against its plain reference, on the extended reals.

  Both programs compute, for every batch row, a squashed-Gaussian policy head (`Cert.Actor`): a hidden layer with a
  positive part, a clamped mean and a clamped log-variance as affine maps of it, a reparameterised sample, its tanh, and
  two log-densities, each a sum over the 32 action coordinates. The kernel works on blocks of 8192 rows, rounds its
  matrix products' operands to bf16 (the identity on the extended reals), and computes the two heads as ONE matrix
  product against the two weight matrices set side by side, slicing the result in two; the reference computes the two
  heads separately. Column `q` of a product against the concatenated matrix is the product against the first matrix's
  column `q`, and column `32 + q` against the second's, so both programs evaluate the same row function: the reference
  at row `p` (`RefRows`), the kernel at row `r` of block `t` for `p = 8192 t + r` (`KernelRows`, `Blocks`), and the 32 blocks
  cover the batch (`OutAction` … `OutGaussLogp`). No law of arithmetic beyond reading each operation at an index is
  used — the sums are the same sums, term by term — so the inputs' finiteness is never needed.
  The three frames are the generated ones (the reference's is its generated run with the results dropped), and the
  idealization rewrote nothing, so there is nothing to preserve.
-/
import proofs.«146228_j83099027243561_2_alg».proof.Defs
import proofs.«146228_j83099027243561_2_alg».proof.Proof.Gen.Kernel
import proofs.«146228_j83099027243561_2_alg».proof.Proof.Gen.Kernel.Frame
import proofs.«146228_j83099027243561_2_alg».proof.Proof.Gen.KernelIdeal
import proofs.«146228_j83099027243561_2_alg».proof.Proof.Gen.KernelIdeal.Frame
import proofs.«146228_j83099027243561_2_alg».proof.Proof.Gen.KernelIdeal.Value
import proofs.«146228_j83099027243561_2_alg».proof.Proof.Gen.ReferenceIdeal
import proofs.«146228_j83099027243561_2_alg».proof.Proof.Gen.ReferenceIdeal.Run
import proofs.«146228_j83099027243561_2_alg».proof.Proof.Gen.ReferenceIdeal.Read
import proofs.«146228_j83099027243561_2_alg».proof.Proof.Gen.Pre_finite_inputs
import proofs.«146228_j83099027243561_2_alg».proof.Proof.KernelRun
import proofs.«146228_j83099027243561_2_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the policy head's four functions of those
    arguments in their four result arrays. -/
theorem algebraic : Cert.algebraic_KernelIdeal_ReferenceIdeal := by
  intro m ρ m' ρ' _ hagree
  refine ⟨fun c => Cert.KernelIdeal.KerValue.outAction m c, fun c => Cert.KernelIdeal.KerValue.outSample m c,
    fun c => Cert.KernelIdeal.KerValue.outLogp m c, fun c => Cert.KernelIdeal.KerValue.outGaussLogp m c,
    Cert.KernelIdeal.KerValue.run m ρ, ?_⟩
  refine (θ_run Cert.ReferenceIdeal.defs _ _).mono (fun _ h c => ?_) (Cert.ReferenceIdeal.Value.run (F := Ideal) m' ρ')
  obtain ⟨h21, h18, h38, h30, hargs⟩ := h c
  obtain ⟨a0, a1, a2, a3, a4, a5, a6, a7⟩ := hagree c
  refine ⟨h21.trans ?_, h18.trans ?_, h38.trans ?_, h30.trans ?_, hargs⟩
  · rw [Cert.ReferenceIdeal.Read.val_main_v21_eq, Cert.ReferenceIdeal.RefValue.action_eq, a0, a1, a2, a3, a4, a5, a6, a7]
  · rw [Cert.ReferenceIdeal.Read.val_main_v18_eq, Cert.ReferenceIdeal.RefValue.sample_eq, a0, a1, a2, a3, a4, a5, a6, a7]
  · rw [Cert.ReferenceIdeal.Read.val_main_v38_eq, Cert.ReferenceIdeal.RefValue.logp_eq, a0, a1, a2, a3, a4, a5, a6, a7]
  · rw [Cert.ReferenceIdeal.Read.val_main_v30_eq, Cert.ReferenceIdeal.RefValue.gaussLogp_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
